-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S1024x256 : Shape := ⟨2, ![1024, 256]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 14
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S1x8192, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1x1024, .f32⟩
  | .local _ .vmem, ⟨4, _⟩ => ⟨S1x1024, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  reduces_S1024x256_S1024 : S1024x256.Reduces [1] S1024
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 8 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What one grid point leaves behind, as values, at any float instance.

  The body keeps, in a column of 1024 entries carried from point to point, the least value seen so far of
  "half squared norm of a candidate minus its inner product with the query" for each of the point's 1024 query rows:
  at the first column tile the column restarts from +infinity, at every tile it is met with the tile's own least
  values, and at the last tile the output block is computed from the column just updated. The three lemmas about the
  column and the one about the output say exactly that, in terms of the body's arithmetic (the payloads) applied to the
  blocks the point reads: the query block, the 1024 candidate rows of the resident array that belong to the point's
  column tile, the tile's half norms, and the column as the previous point left it.
-/
import proofs.«177271_j84086869721403_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The candidate rows a point reads out of the resident array: 1024 consecutive rows starting at 1024 times the
    point's column-tile coordinate, all 256 lanes. -/
def candRows (i : grid0.Coords) (x1 : Vec F S8192x256 .f32) : Vec F S1024x256 .f32 :=
  View.ld x1 (Rect.unit (s := S8192x256) (k0_off1 i) S1024x256.size (k0_off1_inb i))

/-- Middle column tiles: the carried column becomes its meet with the tile's least values. -/
theorem column_B (c : Dev nD) (i : grid0.Coords) (a2 : Memref sig .tc .vmem S1024x256 .f32) (h2 : a2.IsWhole) (a3 : Memref sig .tc .vmem S8192x256 .f32) (h3 : a3.IsWhole) (a4 : Memref sig .tc .vmem S1x1024 .f32) (h4 : a4.IsWhole) (a5 : Memref sig .tc .vmem S1024x1 .f32) (h5 : a5.IsWhole) (a6 : Memref sig .tc .vmem S1024x1 .f32) (h6 : a6.IsWhole) (hc0 : ¬cond0_0 i) (hc1 : ¬cond0_1 i)
    (x0 : Vec F S1024x256 .f32) (x1 : Vec F S8192x256 .f32) (x2 : Vec F S1x1024 .f32) (xs0 : Vec F S1024x1 .f32) :
    sout0_B_0 c i a2 h2 a3 h3 a4 h4 a5 h5 a6 h6 hc0 hc1 x0 x1 x2 xs0 = k0_pay2 x0 (candRows i x1) x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S1024x256) hz, View.ld_unit_zero (S := S1x1024) hz, View.ld_unit_zero (S := S1024x1) hz]
  rfl

/-- Last column tile: the same update of the carried column. -/
theorem column_C (c : Dev nD) (i : grid0.Coords) (a2 : Memref sig .tc .vmem S1024x256 .f32) (h2 : a2.IsWhole) (a3 : Memref sig .tc .vmem S8192x256 .f32) (h3 : a3.IsWhole) (a4 : Memref sig .tc .vmem S1x1024 .f32) (h4 : a4.IsWhole) (a5 : Memref sig .tc .vmem S1024x1 .f32) (h5 : a5.IsWhole) (a6 : Memref sig .tc .vmem S1024x1 .f32) (h6 : a6.IsWhole) (hc0 : ¬cond0_0 i) (hc1 : cond0_1 i)
    (x0 : Vec F S1024x256 .f32) (x1 : Vec F S8192x256 .f32) (x2 : Vec F S1x1024 .f32) (xs0 : Vec F S1024x1 .f32) :
    sout0_C_0 c i a2 h2 a3 h3 a4 h4 a5 h5 a6 h6 hc0 hc1 x0 x1 x2 xs0 = k0_pay2 x0 (candRows i x1) x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x256) hz, View.ld_unit_zero (S := S1x1024) hz, View.ld_unit_zero (S := S1024x1) hz]
  rfl

/-- Last column tile: the output block is the body's closing arithmetic of the query block and of the column as just
    updated (the store into the column comes first, and the output's payload reads the column back). -/
theorem output_C (c : Dev nD) (i : grid0.Coords) (a2 : Memref sig .tc .vmem S1024x256 .f32) (h2 : a2.IsWhole) (a3 : Memref sig .tc .vmem S8192x256 .f32) (h3 : a3.IsWhole) (a4 : Memref sig .tc .vmem S1x1024 .f32) (h4 : a4.IsWhole) (a5 : Memref sig .tc .vmem S1024x1 .f32) (h5 : a5.IsWhole) (a6 : Memref sig .tc .vmem S1024x1 .f32) (h6 : a6.IsWhole) (hc0 : ¬cond0_0 i) (hc1 : cond0_1 i)
    (x0 : Vec F S1024x256 .f32) (x1 : Vec F S8192x256 .f32) (x2 : Vec F S1x1024 .f32) (xs0 : Vec F S1024x1 .f32) :
    out0_C_3 c i a2 h2 a3 h3 a4 h4 a5 h5 a6 h6 hc0 hc1 x0 x1 x2 xs0 = k0_pay3 x0 (k0_pay2 x0 (candRows i x1) x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x1) _ hz]
  simp only [View.readAt_eq_ld, h2.read_unread, h3.read_unread, h4.read_unread, h6.read_unread,
    View.ld_unit_zero (S := S1024x256) hz, View.ld_unit_zero (S := S1x1024) hz, View.ld_unit_zero (S := S1024x1) hz]
  rfl

/-- First column tile: the column restarts from the constant the body stores first (+infinity in every entry) and is met
    with the tile's least values; nothing of the previous point's column is read. -/
theorem column_A (c : Dev nD) (i : grid0.Coords) (a2 : Memref sig .tc .vmem S1024x256 .f32) (h2 : a2.IsWhole) (a3 : Memref sig .tc .vmem S8192x256 .f32) (h3 : a3.IsWhole) (a4 : Memref sig .tc .vmem S1x1024 .f32) (h4 : a4.IsWhole) (a5 : Memref sig .tc .vmem S1024x1 .f32) (h5 : a5.IsWhole) (a6 : Memref sig .tc .vmem S1024x1 .f32) (h6 : a6.IsWhole) (hc0 : cond0_0 i) (hc1 : ¬cond0_1 i)
    (x0 : Vec F S1024x256 .f32) (x1 : Vec F S8192x256 .f32) (x2 : Vec F S1x1024 .f32) :
    sout0_A_0 c i a2 h2 a3 h3 a4 h4 a5 h5 a6 h6 hc0 hc1 x0 x1 x2 = k0_pay2 x0 (candRows i x1) x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread,
    View.ld_unit_zero (S := S1024x256) hz, View.ld_unit_zero (S := S1x1024) hz]
  rfl

end Cert.KernelIdeal.Pieces

end
-- ==== Proof.Blocks.lean ====
/-
  The blocks a grid point reads, as entries of the whole arrays.

  The 64 grid points are 8 row tiles times 8 column tiles, the column tile moving fastest: point `t` is row tile `t / 8`,
  column tile `t % 8`. At point `t`
  * the query block is rows `1024 (t / 8) + p` of the first argument;
  * the second argument is resident whole, and the body itself picks out candidate rows `1024 (t % 8) + q`;
  * the half-norm block is entries `1024 (t % 8) + q` of the row of half norms.
  Row numbers are written with a total function (`rowAt`: the number modulo 8192), which is the number itself wherever
  it is used.
-/
import proofs.«177271_j84086869721403_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- Row number `r` as an index of an axis of extent 8192. -/
def rowAt (r : ℕ) : Fin 8192 := ⟨r % 8192, Nat.mod_lt _ (by norm_num)⟩

/-- The printed index maps and the column-tile coordinate, decided over the 64 points. -/
theorem idx_query : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_cand : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_half : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx_out : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem coord_col : ∀ t : Fin cfg0.N, (grid0.coords t (1 : Fin 2)).val = t.val % 8 :=
  (by decide +kernel : ∀ t : Fin grid0.N, (grid0.coords t (1 : Fin 2)).val = t.val % 8)

/-- The query block at point `t`, entry `(p, k)`. -/
theorem query_block (c : Dev nD) (t : Fin cfg0.N) (p : Fin 1024) (k : Fin 256) :
    (iblk m c 0 t : Vec F S1024x256 .f32) (ix2 p k) = V m c main_arg0 (ix2 (rowAt (t.val / 8 * 1024 + p.val)) k) := by
  have hN : t.val < 64 := lt_of_lt_of_eq t.isLt (show cfg0.N = 64 from N_0)
  unfold iblk
  rw [View.read_apply]
  show V m c main_arg0 _ = V m c main_arg0 _
  refine congrArg (V m c main_arg0) (funext fun a => Fin.ext ?_)
  match a with
  | ⟨0, _⟩ =>
    show win0_0.index t 0 * 1024 + 1 * p.val = (t.val / 8 * 1024 + p.val) % 8192
    rw [(idx_query t).1]; have := p.isLt; omega
  | ⟨1, _⟩ =>
    show win0_0.index t 1 * 256 + 1 * k.val = k.val
    rw [(idx_query t).2]; omega

/-- The resident block is the whole second argument. -/
theorem resident_block (c : Dev nD) (t : Fin cfg0.N) (j : S8192x256.Idx) :
    (iblk m c 1 t : Vec F S8192x256 .f32) j = V m c main_arg1 j := by
  unfold iblk
  rw [View.read_apply]
  show V m c main_arg1 _ = V m c main_arg1 _
  refine congrArg (V m c main_arg1) (funext fun a => Fin.ext ?_)
  match a with
  | ⟨0, _⟩ =>
    show win0_1.index t 0 * 8192 + 1 * (j 0).val = (j 0).val
    rw [(idx_cand t).1]; omega
  | ⟨1, _⟩ =>
    show win0_1.index t 1 * 256 + 1 * (j 1).val = (j 1).val
    rw [(idx_cand t).2]; omega

/-- The candidate rows the body picks out of an array at column-tile coordinate `b`. -/
theorem candRows_apply (i : grid0.Coords) (b : ℕ) (hb : b < 8) (hi : (i (1 : Fin 2)).val = b) (x1 : Vec F S8192x256 .f32)
    (q : Fin 1024) (k : Fin 256) :
    candRows i x1 (ix2 q k) = x1 (ix2 (rowAt (b * 1024 + q.val)) k) := by
  unfold candRows
  show x1 _ = x1 _
  refine congrArg x1 (funext fun a => Fin.ext ?_)
  match a with
  | ⟨0, _⟩ =>
    show k0_off1 i 0 + 1 * q.val = (b * 1024 + q.val) % 8192
    rw [k0_off1_eq i]
    show 1024 * (i 1).val + 1 * q.val = _
    rw [hi]; have := q.isLt; omega
  | ⟨1, _⟩ =>
    show k0_off1 i 1 + 1 * k.val = k.val
    rw [k0_off1_eq i]
    show 0 + 1 * k.val = k.val
    omega

/-- The half-norm block at point `t`, entry `q`. -/
theorem half_block (c : Dev nD) (t : Fin cfg0.N) (q : Fin 1024) :
    (iblk m c 2 t : Vec F S1x1024 .f32) (ix2 (0 : Fin 1) q) = V m c main_v4 (ix2 (0 : Fin 1) (rowAt (t.val % 8 * 1024 + q.val))) := by
  unfold iblk
  rw [View.read_apply]
  show V m c main_v4 _ = V m c main_v4 _
  refine congrArg (V m c main_v4) (funext fun a => Fin.ext ?_)
  match a with
  | ⟨0, _⟩ =>
    show win0_2.index t 0 * 1 + 1 * 0 = 0
    rw [(idx_half t).1]
  | ⟨1, _⟩ =>
    show win0_2.index t 1 * 1024 + 1 * q.val = (t.val % 8 * 1024 + q.val) % 8192
    rw [(idx_half t).2]; have := q.isLt; omega

end Cert.KernelIdeal.Blocks

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibMinLaws.lean ====
/-
  Order facts about minima of extended reals, used to compare a minimum taken tile by tile, with a
  monotone map applied once at the end, against one minimum of the mapped values.

  * a fold of `min` from `⊤` over a finite index type is the infimum;
  * the infimum over the first `w·(j+1)` entries of a family on `Fin (w·q)` is the infimum over the first
    `w·j` entries met with the infimum over block `j`;
  * a monotone map commutes with the infimum of a finite non-empty family (the infimum is attained);
  * the square root on the extended reals is monotone.
-/
import Idealize.ShloMosaic.PureOps.Ideal
import Mathlib.Order.ConditionallyCompleteLattice.Finset
import Mathlib.Data.Finset.Fold

noncomputable section

namespace Cert.MinLaws

open Idealize.ShloMosaic

/-- Folding `min` from `⊤` over all of a finite type gives the infimum of the family. -/
theorem fold_min_top {ι : Type} [Fintype ι] (f : ι → EReal) :
    (Finset.univ : Finset ι).fold min ⊤ f = ⨅ k, f k := by
  apply le_antisymm
  · exact le_iInf fun k => (Finset.fold_min_le _).mpr (Or.inr ⟨k, Finset.mem_univ _, le_rfl⟩)
  · exact (Finset.le_fold_min _).mpr ⟨le_top, fun k _ => iInf_le f k⟩

/-- No entry lies before position `0`: the infimum over the empty prefix is `⊤`. -/
theorem iInf_prefix_zero {N : ℕ} (w : ℕ) (h : Fin N → EReal) :
    (⨅ n : Fin N, if n.val < w * 0 then h n else ⊤) = ⊤ :=
  iInf_eq_top.mpr fun n => if_neg (by omega)

/-- The prefix of length `w·(j+1)` is the prefix of length `w·j` followed by block `j`: the infimum over it is
    the smaller of the two infima. -/
theorem iInf_prefix_succ {N : ℕ} (w j : ℕ) (hj : w * (j + 1) ≤ N) (h : Fin N → EReal) :
    (⨅ n : Fin N, if n.val < w * (j + 1) then h n else ⊤)
      = min (⨅ n : Fin N, if n.val < w * j then h n else ⊤)
            (⨅ k : Fin w, h ⟨w * j + k.val, by have := k.isLt; rw [Nat.mul_succ] at hj; omega⟩) := by
  have hw : w * (j + 1) = w * j + w := Nat.mul_succ w j
  apply le_antisymm
  · refine le_min (le_iInf fun n => ?_) (le_iInf fun k => ?_)
    · by_cases hn : n.val < w * j
      · rw [if_pos hn]
        exact iInf_le_of_le n (le_of_eq (if_pos (by omega)))
      · rw [if_neg hn]; exact le_top
    · exact iInf_le_of_le ⟨w * j + k.val, by have := k.isLt; omega⟩
        (le_of_eq (if_pos (by have := k.isLt; show w * j + k.val < w * (j + 1); omega)))
  · refine le_iInf fun n => ?_
    by_cases hn1 : n.val < w * (j + 1)
    · rw [if_pos hn1]
      by_cases hn : n.val < w * j
      · exact (min_le_left _ _).trans (iInf_le_of_le n (le_of_eq (if_pos hn)))
      · exact (min_le_right _ _).trans (iInf_le_of_le ⟨n.val - w * j, by omega⟩
          (le_of_eq (congrArg h (Fin.ext (by show w * j + (n.val - w * j) = n.val; omega)))))
    · rw [if_neg hn1]; exact le_top

/-- When the prefix is everything, the guard disappears. -/
theorem iInf_prefix_all {N : ℕ} (L : ℕ) (hL : N ≤ L) (h : Fin N → EReal) :
    (⨅ n : Fin N, if n.val < L then h n else ⊤) = ⨅ n : Fin N, h n :=
  iInf_congr fun n => if_pos (lt_of_lt_of_le n.isLt hL)

/-- A monotone map of the extended reals commutes with the infimum of a finite non-empty family: the
    infimum is one of the family's values. -/
theorem map_iInf_of_monotone {ι : Type} [Finite ι] [Nonempty ι] {f : EReal → EReal} (hf : Monotone f)
    (a : ι → EReal) : f (⨅ i, a i) = ⨅ i, f (a i) := by
  obtain ⟨i₀, h⟩ := exists_eq_ciInf_of_finite (f := a)
  apply le_antisymm
  · exact le_iInf fun i => hf (iInf_le a i)
  · rw [← h]; exact iInf_le (fun i => f (a i)) i₀

/-- The square root of the extended reals (`⊥` below zero, `√⊤ = ⊤`) is monotone. -/
theorem sqrt_mono : Monotone Ideal.sqrt := by
  intro x y hxy
  induction x using EReal.rec with
  | bot => rw [Ideal.sqrt_bot]; exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

/-- Adding a fixed value, clamping below at zero and taking the square root is monotone. -/
theorem sqrt_clamp_add_mono (k z : EReal) : Monotone fun x : EReal => Ideal.sqrt (max (x + k) z) :=
  fun _ _ h => sqrt_mono (max_le_max (add_le_add h le_rfl) le_rfl)

end Cert.MinLaws

end
-- ==== Proof.LibFloatWords.lean ====
/-
  The extended reals a few f32 words denote: +∞, 2 and -2.
-/
import Idealize.ShloMosaic.PureOps.Ideal

noncomputable section

namespace Cert.FloatWords

open Idealize.ShloMosaic

/-- The word of f32's `+inf` denotes `⊤`. -/
theorem ofBits_inf : Ideal.ofBits .f32 0x7F800000#32 = ⊤ := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

end Cert.FloatWords

end
-- ==== Proof.LibLaneMin.lean ====
/-
  GENERAL lemmas: a least-value reduction over the lane axis of a matrix, started from +infinity, read at a row on the
  extended reals — the infimum of the row's entries — in the two spellings a kernel and a host program give it, at any
  extents. (A fold of the minimum over a finite set does not depend on the order, and from +infinity it is the infimum.)
-/
import proofs.«177271_j84086869721403_2_alg».proof.Proof.LibMinLaws
import proofs.«177271_j84086869721403_2_alg».proof.Proof.LibFloatWords
import proofs.«177271_j84086869721403_2_alg».proof.Proof.LibLayout
import Idealize.ShloMosaic.Lib.ValueIdx
import Idealize.ShloMosaic.PureOps.Ideal.Laws

noncomputable section

open Idealize.ShloMosaic Idealize.ShloMosaic.ValueIdx

namespace Cert.LibLaneMin

/-- The kernel's spelling: a vector reduction by minimum over the lanes, from the word of +infinity, at row `r`. -/
theorem laneMin_apply {a b : ℕ} (v : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (r : Fin a) :
    multiReduction .minimumf [1] ⟨1, ![a]⟩ v 0x7F800000#32 h hφ hacc (ix1 r) = ⨅ k : Fin b, v (ix2 r k) := by
  refine (multiReduction_minimumf_eq_fold v _ h hφ hacc (ix1 r)).trans ?_
  refine (h.fold_filter_drop_single _ _ v (ix1 r)).trans ?_
  refine (congrArg (fun z : EReal => Finset.fold min z (v ∘ h.lift (ix1 r)) Finset.univ) Cert.FloatWords.ofBits_inf).trans ?_
  refine (Cert.MinLaws.fold_min_top _).trans ?_
  exact iInf_congr fun k => congrArg v (Cert.LibLayout.lift_row h r k)

/-- The host's spelling: a one-operand reduce by minimum over the lanes whose initial value is +infinity, at row `r`. -/
theorem hostLaneMin_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (hinit : init (Shape.Idx.first hu) = ⊤) (r : Fin a) :
    Host.reduce (FloatOps.minimumf (F := Ideal) (φ := .f32)) y init h' hu (ix1 r) = ⨅ k : Fin b, y (ix2 r k) := by
  refine (Host.reduce_eq_fold_single FloatOps.minimumf y init h' h hu (ix1 r)).trans ?_
  refine (congrArg (fun z : EReal => Finset.fold min z (y ∘ h.lift (ix1 r)) Finset.univ) hinit).trans ?_
  refine (Cert.MinLaws.fold_min_top _).trans ?_
  exact iInf_congr fun k => congrArg y (Cert.LibLayout.lift_row h r k)

end Cert.LibLaneMin

end
-- ==== Proof.Payloads.lean ====
/-
  The body's arithmetic, read one entry at a time on the extended reals.

  * the restart value of the carried column is +infinity in every entry;
  * the column update at query row `p`: the smaller of the old entry and, over the tile's 1024 candidates `q`, the least
    of "the candidate's half norm minus the inner product of query row `p` with candidate row `q`" (the matrix product of
    the query block with the transposed candidate block is that inner product; the narrowing to a shorter float format
    before it changes nothing here);
  * the closing arithmetic at row `p`: the row's squared norm plus twice the column entry, times the constant `1/256`.
-/
import proofs.«177271_j84086869721403_2_alg».proof.Proof.Gen.KernelIdeal.Skeleton
import proofs.«177271_j84086869721403_2_alg».proof.Proof.LibLanes
import proofs.«177271_j84086869721403_2_alg».proof.Proof.LibLayout
import proofs.«177271_j84086869721403_2_alg».proof.Proof.LibLaneMin
import proofs.«177271_j84086869721403_2_alg».proof.Proof.LibFloatWords
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen Cert.LibLaneMin

/-! The matrix unit's dimension record contracts lane axis 1 of both operands: the four coordinate facts. -/

theorem lhs0 (i : S1024x1024.Idx) (s : dot_S1024x256_S1024x256_S1024x1024_1_1_0_0_n_n.contr.Idx) :
    (dot_S1024x256_S1024x256_S1024x1024_1_1_0_0_n_n.lhsIdx i s 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs1 (i : S1024x1024.Idx) (s : dot_S1024x256_S1024x256_S1024x1024_1_1_0_0_n_n.contr.Idx) :
    (dot_S1024x256_S1024x256_S1024x1024_1_1_0_0_n_n.lhsIdx i s 1).val = (s ⟨0, by decide⟩).val :=
  dot_S1024x256_S1024x256_S1024x1024_1_1_0_0_n_n.lhsIdx_val_of_single rfl i s
theorem rhs0 (i : S1024x1024.Idx) (s : dot_S1024x256_S1024x256_S1024x1024_1_1_0_0_n_n.contr.Idx) :
    (dot_S1024x256_S1024x256_S1024x1024_1_1_0_0_n_n.rhsIdx i s 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs1 (i : S1024x1024.Idx) (s : dot_S1024x256_S1024x256_S1024x1024_1_1_0_0_n_n.contr.Idx) :
    (dot_S1024x256_S1024x256_S1024x1024_1_1_0_0_n_n.rhsIdx i s 1).val = (s ⟨0, by decide⟩).val :=
  dot_S1024x256_S1024x256_S1024x1024_1_1_0_0_n_n.rhsIdx_val_of_single rfl i s

/-- The restart value: +infinity in every entry. -/
theorem restart_apply (p : Fin 1024) : k0_pay1 (F := Ideal) (ix2 p (0 : Fin 1)) = ⊤ := by
  unfold k0_pay1
  rw [shapeCast_self]
  exact Cert.FloatWords.ofBits_inf

/-- The column update at query row `p`. -/
theorem column_apply (v3 v7 : Vec Ideal S1024x256 .f32) (v11 : Vec Ideal S1x1024 .f32) (v17 : Vec Ideal S1024x1 .f32) (p : Fin 1024) :
    k0_pay2 (F := Ideal) v3 v7 v11 v17 (ix2 p (0 : Fin 1))
      = min (v17 (ix2 p (0 : Fin 1)))
          (⨅ q : Fin 1024, (v11 (ix2 (0 : Fin 1) q) - ∑ k : Fin 256, v3 (ix2 p k) * v7 (ix2 q k))) := by
  unfold k0_pay2
  rw [shapeCast_self, minimumf_apply, Cert.LibLayout.shapeCast_a_a1_apply]
  refine congrArg (min _) ((laneMin_apply _ _ _ _ p).trans (iInf_congr fun q => ?_))
  rw [subf_apply, ValueIdx.broadcastTo_1b_ab_apply, shapeCast_self]
  refine congrArg (_ - ·) ?_
  exact Cert.LibLanes.matmul_lanes dot_S1024x256_S1024x256_S1024x1024_1_1_0_0_n_n rfl rfl lhs0 lhs1 rhs0 rhs1 _ _ p q

/-- The closing arithmetic at row `p`. -/
theorem closing_apply (v3 : Vec Ideal S1024x256 .f32) (v28 : Vec Ideal S1024x1 .f32) (p : Fin 1024) :
    k0_pay3 (F := Ideal) v3 v28 (ix2 p (0 : Fin 1))
      = ((∑ k : Fin 256, v3 (ix2 p k) * v3 (ix2 p k)) + Ideal.ofBits .f32 0x40000000#32 * v28 (ix2 p (0 : Fin 1)))
          * Ideal.ofBits .f32 0x3B800000#32 := by
  unfold k0_pay3
  rw [mulf_apply, addf_apply, Cert.LibLayout.shapeCast_a_a1_apply]
  refine congrArg (· * _) (congrArg (· + _) ?_)
  exact Cert.LibLayout.laneSum_apply _ _ _ _ p

end Cert.KernelIdeal.Payloads

end
-- ==== Proof.Column.lean ====
/-
  The carried column, point by point, on the extended reals.

  Write `gap r n` for "half the squared norm of candidate `n` minus the inner product of query row `r` with candidate
  `n`", both read off the arrays as the kernel finds them. After the point of row tile `rt` and column tile `b`, entry
  `p` of the carried column is the least `gap (1024 rt + p) n` over the candidates `n < 1024 (b + 1)` seen so far: the first
  column tile starts from +infinity and meets its own 1024 candidates, each later tile meets the previous point's
  column (same row tile: the column tile moves fastest) with its own 1024. This is an induction on the point, never an
  enumeration of the grid. At the last column tile the prefix is everything, and the output block's entry is the row's
  squared norm plus twice that least gap, times the constant.
-/
import proofs.«177271_j84086869721403_2_alg».proof.Proof.Blocks
import proofs.«177271_j84086869721403_2_alg».proof.Proof.Payloads

set_option maxRecDepth 16384

noncomputable section

open scoped BigOperators
open Idealize.ShloMosaic Idealize.ShloMosaic.TcCoe Idealize.SL.Sem Idealize.ShloMosaic.ValueIdx

namespace Cert.KernelIdeal.Column

open Cert.KernelIdeal Cert.KernelIdeal.Gen Cert.KernelIdeal.Pieces Cert.KernelIdeal.Payloads Cert.KernelIdeal.Blocks

variable (m : (ℓ : Loc nD τ sig) → Buf (Elt Ideal) ℓ)

/-- The three arrays as the kernel finds them, as arrays of extended reals: the queries, the candidates, and the row
    of the candidates' half squared norms. -/
abbrev queries (c : Dev nD) : S8192x256.Idx → EReal := V m c main_arg0
abbrev candidates (c : Dev nD) : S8192x256.Idx → EReal := V m c main_arg1
abbrev halfNorms (c : Dev nD) : S1x8192.Idx → EReal := V m c main_v4

/-- Candidate `n`'s half squared norm minus its inner product with query row `r`. -/
def gap (c : Dev nD) (r n : Fin 8192) : EReal :=
  halfNorms m c (ix2 (0 : Fin 1) n) - ∑ k : Fin 256, queries m c (ix2 r k) * candidates m c (ix2 n k)

/-- The least gap of query row `1024 rt + p` over the candidates of column tiles `0 … b`. -/
def colMin (c : Dev nD) (rt b : ℕ) (p : Fin 1024) : EReal :=
  ⨅ n : Fin 8192, if n.val < 1024 * (b + 1) then gap m c (rowAt (rt * 1024 + p.val)) n else ⊤

theorem rowAt_eq (r : ℕ) (h : r < 8192) : rowAt r = ⟨r, h⟩ := Fin.ext (Nat.mod_eq_of_lt h)

/-- The least gap over column tile `b` alone, as the prefix lemma spells a block. -/
theorem tile_eq (c : Dev nD) (r : Fin 8192) (b : ℕ) (hb : 1024 * (b + 1) ≤ 8192) :
    (⨅ q : Fin 1024, gap m c r (rowAt (b * 1024 + q.val)))
      = ⨅ k : Fin 1024, gap m c r ⟨1024 * b + k.val, by have := k.isLt; rw [Nat.mul_succ] at hb; omega⟩ :=
  iInf_congr fun q => congrArg (gap m c r) (Fin.ext (by
    show (b * 1024 + q.val) % 8192 = 1024 * b + q.val
    have := q.isLt; rw [Nat.mul_succ] at hb; omega))

/-- The first column tile: from +infinity. -/
theorem colMin_first (c : Dev nD) (rt : ℕ) (p : Fin 1024) :
    min ⊤ (⨅ q : Fin 1024, gap m c (rowAt (rt * 1024 + p.val)) (rowAt (0 * 1024 + q.val))) = colMin m c rt 0 p := by
  unfold colMin
  rw [Cert.MinLaws.iInf_prefix_succ 1024 0 (by norm_num) (gap m c (rowAt (rt * 1024 + p.val))),
    Cert.MinLaws.iInf_prefix_zero, tile_eq m c _ 0 (by norm_num)]

/-- A later column tile: the previous prefix met with the tile. -/
theorem colMin_next (c : Dev nD) (rt b : ℕ) (hb : b + 1 < 8) (p : Fin 1024) :
    min (colMin m c rt b p) (⨅ q : Fin 1024, gap m c (rowAt (rt * 1024 + p.val)) (rowAt ((b + 1) * 1024 + q.val)))
      = colMin m c rt (b + 1) p := by
  unfold colMin
  rw [Cert.MinLaws.iInf_prefix_succ 1024 (b + 1) (by omega) (gap m c (rowAt (rt * 1024 + p.val))),
    tile_eq m c _ (b + 1) (by omega)]

/-- After the last column tile the prefix is every candidate. -/
theorem colMin_last (c : Dev nD) (rt : ℕ) (p : Fin 1024) :
    colMin m c rt 7 p = ⨅ n : Fin 8192, gap m c (rowAt (rt * 1024 + p.val)) n :=
  Cert.MinLaws.iInf_prefix_all (1024 * (7 + 1)) (by norm_num) _

/-- One point's update of the column, in terms of the whole arrays: the old entry met with the tile's least gap. -/
theorem step (c : Dev nD) (t : Fin cfg0.N) (rt b : ℕ) (hr : t.val / 8 = rt) (hb : t.val % 8 = b)
    (xs : Vec Ideal S1024x1 .f32) (p : Fin 1024) :
    k0_pay2 (F := Ideal) (iblk m c 0 t) (candRows (grid0.coords t) (iblk m c 1 t)) (iblk m c 2 t) xs (ix2 p (0 : Fin 1))
      = min (xs (ix2 p (0 : Fin 1))) (⨅ q : Fin 1024, gap m c (rowAt (rt * 1024 + p.val)) (rowAt (b * 1024 + q.val))) := by
  subst hr hb
  have hb8 : t.val % 8 < 8 := Nat.mod_lt _ (by norm_num)
  refine (column_apply (iblk m c 0 t) (candRows (grid0.coords t) (iblk m c 1 t)) (iblk m c 2 t) xs p).trans ?_
  refine congrArg (min _) (iInf_congr fun q => ?_)
  unfold gap
  refine congrArg₂ (· - ·) (half_block m c t q) (Finset.sum_congr rfl fun k _ => ?_)
  exact congrArg₂ (· * ·) (query_block m c t p k)
    ((candRows_apply (grid0.coords t) (t.val % 8) hb8 (coord_col t) (iblk m c 1 t) q k).trans (resident_block m c t _))

set_option maxHeartbeats 3200000 in
/-- THE COLUMN after the point at position `n`. -/
theorem column_eq (c : Dev nD) : ∀ (n : ℕ) (hn : n < cfg0.N) (p : Fin 1024),
    (outsAt0 m c n hn).2 (ix2 p (0 : Fin 1)) = colMin m c (n / 8) (n % 8) p
  | 0, hn, p => by
    let t : Fin cfg0.N := ⟨0, hn⟩
    have hc0 : cond0_0 (grid0.coords t) := (hcond0_0 t).mpr rfl
    have h17 : ¬t.val % 8 = 7 := by show ¬(0 : ℕ) % 8 = 7; omega
    have hc1 : ¬cond0_1 (grid0.coords t) := fun h => h17 ((hcond0_1 t).mp h)
    refine (congrFun (congrArg Prod.snd (outsAt0_A m c t rfl h17)) (ix2 p (0 : Fin 1))).trans ?_
    refine (congrFun (column_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) (ix2 p (0 : Fin 1))).trans ?_
    refine (step m c t 0 0 (Nat.zero_div 8) (Nat.zero_mod 8) _ p).trans ?_
    rw [restart_apply]
    exact colMin_first m c 0 p
  | n + 1, hn, p => by
    let t : Fin cfg0.N := ⟨n + 1, hn⟩
    have hN : n + 1 < 64 := lt_of_lt_of_eq hn (show cfg0.N = 64 from N_0)
    by_cases h0 : (n + 1) % 8 = 0
    · have h1 : ¬(n + 1) % 8 = 7 := by omega
      have hc0 : cond0_0 (grid0.coords t) := (hcond0_0 t).mpr h0
      have hc1 : ¬cond0_1 (grid0.coords t) := fun h => h1 ((hcond0_1 t).mp h)
      refine (congrFun (congrArg Prod.snd (outsAt0_A m c t h0 h1)) (ix2 p (0 : Fin 1))).trans ?_
      refine (congrFun (column_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) (ix2 p (0 : Fin 1))).trans ?_
      refine (step m c t ((n + 1) / 8) 0 rfl h0 _ p).trans ?_
      rw [restart_apply, h0]
      exact colMin_first m c ((n + 1) / 8) p
    · have hr : (n + 1) / 8 = n / 8 := by omega
      have hb : (n + 1) % 8 = n % 8 + 1 := by omega
      have hc0 : ¬cond0_0 (grid0.coords t) := fun h => h0 ((hcond0_0 t).mp h)
      have ih := column_eq c n (Nat.lt_of_succ_lt hn) p
      rw [hr, hb]
      by_cases h1 : (n + 1) % 8 = 7
      · have hc1 : cond0_1 (grid0.coords t) := (hcond0_1 t).mpr h1
        refine (congrFun (congrArg Prod.snd (outsAt0_C m c t h0 h1)) (ix2 p (0 : Fin 1))).trans ?_
        refine (congrFun (column_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)
          (outsAt0 m c n (Nat.lt_of_succ_lt hn)).2) (ix2 p (0 : Fin 1))).trans ?_
        refine (step m c t (n / 8) (n % 8 + 1) hr hb _ p).trans ?_
        rw [ih]
        exact colMin_next m c (n / 8) (n % 8) (by omega) p
      · have hc1 : ¬cond0_1 (grid0.coords t) := fun h => h1 ((hcond0_1 t).mp h)
        refine (congrFun (congrArg Prod.snd (outsAt0_B m c t h0 h1)) (ix2 p (0 : Fin 1))).trans ?_
        refine (congrFun (column_B c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)
          (outsAt0 m c n (Nat.lt_of_succ_lt hn)).2) (ix2 p (0 : Fin 1))).trans ?_
        refine (step m c t (n / 8) (n % 8 + 1) hr hb _ p).trans ?_
        rw [ih]
        exact colMin_next m c (n / 8) (n % 8) (by omega) p

set_option maxHeartbeats 3200000 in
/-- THE OUTPUT BLOCK at a point of the last column tile: entry `p` is the row's squared norm plus twice the least gap
    over every candidate, times the constant. -/
theorem output_eq (c : Dev nD) (t : Fin cfg0.N) (h7 : t.val % 8 = 7) (p : Fin 1024) :
    (outsAt0 m c t.val t.isLt).1 (ix2 p (0 : Fin 1))
      = ((∑ k : Fin 256, queries m c (ix2 (rowAt (t.val / 8 * 1024 + p.val)) k)
            * queries m c (ix2 (rowAt (t.val / 8 * 1024 + p.val)) k))
          + Ideal.ofBits .f32 0x40000000#32 * ⨅ n : Fin 8192, gap m c (rowAt (t.val / 8 * 1024 + p.val)) n)
        * Ideal.ofBits .f32 0x3B800000#32 := by
  have h0 : ¬t.val % 8 = 0 := by omega
  have hc0 : ¬cond0_0 (grid0.coords t) := fun h => h0 ((hcond0_0 t).mp h)
  have hc1 : cond0_1 (grid0.coords t) := (hcond0_1 t).mpr h7
  have hcol := column_eq m c t.val t.isLt
  have e := outsAt0_C m c t h0 h7
  refine (congrFun (congrArg Prod.fst e) (ix2 p (0 : Fin 1))).trans ?_
  refine (congrFun (output_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)
    (outsAt0 m c (t.val - 1) (Nat.lt_of_le_of_lt (Nat.sub_le _ _) t.isLt)).2) (ix2 p (0 : Fin 1))).trans ?_
  refine (closing_apply _ _ p).trans ?_
  have ecol : k0_pay2 (F := Ideal) (iblk m c 0 t) (candRows (grid0.coords t) (iblk m c 1 t)) (iblk m c 2 t)
        (outsAt0 m c (t.val - 1) (Nat.lt_of_le_of_lt (Nat.sub_le _ _) t.isLt)).2 (ix2 p (0 : Fin 1))
      = ⨅ n : Fin 8192, gap m c (rowAt (t.val / 8 * 1024 + p.val)) n := by
    refine (congrFun (column_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)
      (outsAt0 m c (t.val - 1) (Nat.lt_of_le_of_lt (Nat.sub_le _ _) t.isLt)).2) (ix2 p (0 : Fin 1))).symm.trans ?_
    refine (congrFun (congrArg Prod.snd e) (ix2 p (0 : Fin 1))).symm.trans ?_
    rw [hcol p, h7]
    exact colMin_last m c (t.val / 8) p
  rw [ecol]
  refine congrArg (· * _) (congrArg (· + _) (Finset.sum_congr rfl fun k _ => ?_))
  exact congrArg₂ (· * ·) (query_block m c t p k) (query_block m c t p k)

end Cert.KernelIdeal.Column

end
-- ==== Proof.Output.lean ====
/-
  From the blocks written back to the whole output array.

  The output column has 8192 rows in 8 blocks of 1024; block `rt` is written back once, after the last column tile of row
  tile `rt` (point `8 rt + 7`), and what is written there is, row by row, the row's squared norm plus twice its least
  gap over every candidate, times the constant. Every row lies in exactly one such block (row `r` in block `r / 1024`),
  so the array after the region is that one function of the row.
-/
import proofs.«177271_j84086869721403_2_alg».proof.Proof.Column

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.Blocks Cert.KernelIdeal.Column

variable (m : (ℓ : Loc nD τ sig) → Buf (Elt Ideal) ℓ)

/-- The value of output row `r`. -/
def rowValue (c : Dev nD) (r : Fin 8192) : EReal :=
  ((∑ k : Fin 256, queries m c (ix2 r k) * queries m c (ix2 r k))
      + Ideal.ofBits .f32 0x40000000#32 * ⨅ n : Fin 8192, gap m c r n) * Ideal.ofBits .f32 0x3B800000#32

/-- The output array the region leaves: row `r` holds `rowValue r`. -/
def rowValues (c : Dev nD) : S8192x1.Idx → EReal := fun i => rowValue m c (rowAt (i 0).val)

/-- One entry of what a last-column-tile point writes back. -/
theorem flushed_entry (c : Dev nD) (t : Fin cfg0.N) (h7 : t.val % 8 = 7) (j : S1024x1.Idx) :
    (outsAt0 m c t.val t.isLt).1 j = rowValues m c (((cfg0.win 3).blk t).view.emb j) := by
  have hN : t.val < 64 := lt_of_lt_of_eq t.isLt (show cfg0.N = 64 from N_0)
  obtain ⟨p, u, rfl⟩ : ∃ (p : Fin 1024) (u : Fin 1), j = ix2 p u := ⟨j 0, j 1, eq_ix2 j⟩
  obtain rfl : u = 0 := Subsingleton.elim _ _
  refine (output_eq m c t h7 p).trans ?_
  unfold rowValues rowValue
  have e : rowAt (t.val / 8 * 1024 + p.val) = rowAt ((((cfg0.win 3).blk t).view.emb (ix2 p (0 : Fin 1))) 0).val :=
    congrArg rowAt (by
      show _ = win0_3.index t 0 * 1024 + 1 * p.val
      rw [(idx_out t).1]; omega)
  rw [e]

/-- WHAT A POINT WRITES BACK is its block of `rowValues`. -/
theorem flushed_eq (c : Dev nD) (t : Fin cfg0.N) (hf : (cfg0.win 3).flush t = true) :
    (dats m 0 c).flushed 3 t = ((cfg0.win 3).blk t).view.read (Elt Ideal) (rowValues m c) := by
  have h7 : t.val % 8 = 7 := (flush0_3 t).mp hf
  show (cfg0.win 3).cut (grid0.coords t) ((dats m 0 c).after 3 t) = _
  rw [after0_3]
  funext j
  exact flushed_entry m c t h7 j

/-- An index of the output array is in point `t`'s block iff each coordinate is in the block's range on its axis. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v5).slice (win0_3.rect t)).set ↔ _
  rw [View.set_slice_whole, Rect.mem_set_unit]
  exact Iff.rfl

/-- Every row is in the block written back after the last column tile of its row tile. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  let t : Fin cfg0.N := ⟨(i 0).val / 1024 * 8 + 7, by rw [hN]; omega⟩
  have ht : t.val = (i 0).val / 1024 * 8 + 7 := rfl
  refine ⟨t, (flush0_3 t).mpr (by rw [ht]; omega), ?_⟩
  rw [mem_blk]
  intro a
  match a with
  | ⟨0, _⟩ =>
    show win0_3.index t 0 * 1024 ≤ (i 0).val ∧ (i 0).val < win0_3.index t 0 * 1024 + 1024
    rw [(idx_out t).1, ht]; omega
  | ⟨1, _⟩ =>
    show win0_3.index t 1 * 1 ≤ (i 1).val ∧ (i 1).val < win0_3.index t 1 * 1 + 1
    rw [(idx_out t).2]; omega

/-- THE OUTPUT ARRAY after the region. -/
theorem final (c : Dev nD) : (dats m 0 c).arrAt 3 cfg0.N = rowValues m c :=
  (dats m 0 c).arrAt_eq_of_cover 3 (rowValues m c) (flushed_eq m c) cover

end Cert.KernelIdeal.Output

end
-- ==== Proof.LibHostSums.lean ====
/-
  GENERAL lemmas: host sums read at an index, on the extended reals, at any extents.

  * a host sum over the lane axis of a matrix, read at row `n`: the initial value plus the sum of the row's entries;
  * a sum over the index set of a column `[n, 1]` is the sum over its rows.
-/
import proofs.«177271_j84086869721403_2_alg».proof.Proof.LibLayout
import Idealize.ShloMosaic.Lib.ValueIdx
import Idealize.ShloMosaic.PureOps.Ideal.Laws

noncomputable section

open scoped BigOperators
open Idealize.ShloMosaic Idealize.ShloMosaic.ValueIdx

namespace Cert.LibHostSums

/-- A host sum over the lane axis, at row `n`. -/
theorem hostLaneSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduceAdd (F := Ideal) y init h' hu (ix1 n) = init (Shape.Idx.first hu) + ∑ k : Fin b, y (ix2 n k) := by
  simp only [Host.reduceAdd, Ideal.hostReduceAdd_def]
  rw [Ideal.hostReduceAdd_single h' h]
  exact congrArg (_ + ·) (Finset.sum_congr rfl fun k _ => congrArg y (Cert.LibLayout.lift_row h n k))

/-- A sum over the index set of a column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostSums

end
-- ==== Proof.KernelValue.lean ====
/-
  The host operations around the region, and the kernel's run with its result named.

  Before the region the host computes, for every candidate, half its squared norm (the constant one half times the sum
  of squares from zero) as one row. After the region it sums the output column from zero and divides by 8192. So the
  kernel's result is that mean of `rowValue` over the rows.
-/
import proofs.«177271_j84086869721403_2_alg».proof.Proof.Output
import proofs.«177271_j84086869721403_2_alg».proof.Proof.LibHostSums
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Blocks Cert.KernelIdeal.Column Cert.KernelIdeal.Output Cert.LibHostSums

variable (m : (ℓ : Loc nD τ sig) → Buf (Elt Ideal) ℓ) (ρ : Dev nD → PrngReg)

/-- The row of half norms is what the host operations before the region compute from the second argument. -/
theorem halfNorms_eq (c : Dev nD) :
    halfNorms m c = broadcastInDim S1x8192 ![1] bcast_S8192_S1x8192_1
      (mulf (broadcastInDim S8192 ![] bcast_S_S8192 (constant (F := Ideal) S_ .f32 0x3F000000#32))
        (Host.reduceAdd (mulf (m ((c.tc : Thread nD τ).loc main_arg1)) (m ((c.tc : Thread nD τ).loc main_arg1)))
          (constant (F := Ideal) S_ .f32 0x00000000#32) reducesTo_S8192x256_S8192_d1 h_S_)) := by
  show StableHlo.after hostOps0 (fun b => m (c, b)) (Proc.devRef .tc main_v4) = _
  after_results

/-- Candidate `n`'s entry of it: one half times (zero plus the sum of the squares of the candidate's entries). -/
theorem halfNorms_apply (c : Dev nD) (n : Fin 8192) :
    halfNorms m c (ix2 (0 : Fin 1) n)
      = Ideal.ofBits .f32 0x3F000000#32
          * (Ideal.ofBits .f32 0x00000000#32 + ∑ k : Fin 256, candidates m c (ix2 n k) * candidates m c (ix2 n k)) := by
  have hc : candidates m c = m ((c.tc : Thread nD τ).loc main_arg1) := V_main_arg1 m c
  rw [halfNorms_eq, hc]
  refine (broadcastInDim_apply _ bcast_S8192_S1x8192_1 _ (ix2 (0 : Fin 1) n) (ix1 n) (fun a => match a with
    | ⟨0, _⟩ => by show n.val = if (8192 : Nat) = 1 then 0 else n.val; rw [if_neg (by decide)])).trans ?_
  rw [mulf_apply]
  refine congrArg₂ (· * ·) ?_ ?_
  · exact broadcastInDim_apply _ bcast_S_S8192 _ (ix1 n) (fun a => a.elim0) (fun a => a.elim0)
  · exact hostLaneSum_apply _ _ reducesTo_S8192x256_S8192_d1 (by decide) h_S_ n

/-- The kernel's result: the output column summed from zero and divided by 8192. -/
def result (c : Dev nD) : S_.Idx → EReal :=
  Host.divf (Host.reduceAdd (F := Ideal) (rowValues m c) (constant (F := Ideal) S_ .f32 0x00000000#32) reducesTo_S8192x1_S_d0_1 h_S_)
    (constant (F := Ideal) S_ .f32 0x46000000#32)

/-- The host operations after the region, applied to the output array the region leaves. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5)
      = rowValues m c :=
    (Pipeline.withArrays_arr spec0 launch0.win.arr_inj c (V0 m c) (fun w => (dats m 0 c).arrAt w cfg0.N) 3).trans (final m c)
  rw [e]
  rfl

/-- THE KERNEL'S RUN: every weakly fair execution ends, without a fault, with the result buffer at `result` and the two
    arguments as they were. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v7 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.LibIdxSums.lean ====
/-
  GENERAL lemmas: a sum over the index set of a rank-1 array is the sum over its one coordinate, and a sum over
  the index set of a rank-3 array is the triple sum over its coordinates (any additive commutative monoid).
-/
import Idealize.ShloMosaic.Lib.ValueIdx

noncomputable section

open scoped BigOperators

namespace Cert.LibIdxSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums

end
-- ==== Proof.Reference.lean ====
/-
  The reference, read at an index on the extended reals.

  Entry `(r, n)` of its distance matrix is ((zero + squared norm of query r) + (zero + squared norm of candidate n)
  - 2 (inner product of the two)) divided by 256; row `r` of its row minimum is the least of these over the candidates
  (a fold of the minimum from +infinity over a finite set is the infimum); its result is the row minima summed from zero
  and divided by 8192.
-/
import proofs.«177271_j84086869721403_2_alg».proof.Proof.Gen.ReferenceIdeal.Read
import proofs.«177271_j84086869721403_2_alg».proof.Proof.LibMinLaws
import proofs.«177271_j84086869721403_2_alg».proof.Proof.LibFloatWords
import proofs.«177271_j84086869721403_2_alg».proof.Proof.LibLayout
import proofs.«177271_j84086869721403_2_alg».proof.Proof.LibIdxSums

noncomputable section

open scoped BigOperators
open Idealize.ShloMosaic Idealize.ShloMosaic.ValueIdx

namespace Cert.ReferenceIdeal.RefValue

open Cert.ReferenceIdeal Cert.ReferenceIdeal.Gen Cert.ReferenceIdeal.Read

variable (x0 x1 : (⟨S8192x256, .f32⟩ : BufTy).Contents (Elt Ideal))

/-! Read's composed index functions, at coordinates. -/

theorem e_q (r n : Fin 8192) (k : Fin 256) : idx_main_v1 (idx_main_v5 (idx_main_v7 (ix2 r n))) k = ix2 r k :=
  funext fun a => Fin.ext (by match a with | ⟨0, _⟩ => rfl | ⟨1, _⟩ => rfl)
theorem e_c (r n : Fin 8192) (k : Fin 256) : idx_main_v3 (idx_main_v6 (idx_main_v8 (ix2 r n))) k = ix2 n k :=
  funext fun a => Fin.ext (by match a with | ⟨0, _⟩ => rfl | ⟨1, _⟩ => rfl)
theorem e_l (r n : Fin 8192) (k : Fin 256) : lidx_main_v4 (ix2 r n) k = ix2 r k :=
  funext fun a => Fin.ext (by match a with | ⟨0, _⟩ => rfl | ⟨1, _⟩ => rfl)
theorem e_r (r n : Fin 8192) (k : Fin 256) : ridx_main_v4 (ix2 r n) k = ix2 n k :=
  funext fun a => Fin.ext (by match a with | ⟨0, _⟩ => rfl | ⟨1, _⟩ => rfl)

/-- Entry `(r, n)` of the scaled distance matrix. -/
theorem dist_apply (r n : Fin 8192) :
    val_main_v14 (F := Ideal) x0 x1 (ix2 r n)
      = Ideal.div
          (((Ideal.ofBits .f32 0x00000000#32 + ∑ k : Fin 256, x0 (ix2 r k) * x0 (ix2 r k))
              + (Ideal.ofBits .f32 0x00000000#32 + ∑ k : Fin 256, x1 (ix2 n k) * x1 (ix2 n k)))
            - Ideal.ofBits .f32 0x40000000#32 * ∑ k : Fin 256, x0 (ix2 r k) * x1 (ix2 n k))
          (Ideal.ofBits .f32 0x43800000#32) := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [e_q, e_c, e_l, e_r, val_main_v0_apply, val_main_v2_apply, val_main_cst_apply, val_main_cst_0_apply,
    val_main_cst_1_apply, val_main_cst_2_apply, Ideal.hostDivf_def, Ideal.subf_def, Ideal.addf_def, Ideal.mulf_def,
    Ideal.ofBits_def]

/-- Row `r` of the row minimum: the least scaled distance over the candidates. -/
theorem rowMin_apply (r : Fin 8192) :
    val_main_v15 (F := Ideal) x0 x1 (ix1 r) = ⨅ n : Fin 8192, val_main_v14 (F := Ideal) x0 x1 (ix2 r n) := by
  have hred : S8192x8192.Reduces [1] S8192 := by decide
  unfold val_main_v15
  refine (Host.reduce_eq_fold_single FloatOps.minimumf _ _ reducesTo_S8192x8192_S8192_d1 hred h_S_ (ix1 r)).trans ?_
  refine (congrArg (fun z : EReal => Finset.fold min z (val_main_v14 (F := Ideal) x0 x1 ∘ hred.lift (ix1 r)) Finset.univ)
    Cert.FloatWords.ofBits_inf).trans ?_
  refine (Cert.MinLaws.fold_min_top _).trans ?_
  exact iInf_congr fun n => congrArg (val_main_v14 (F := Ideal) x0 x1) (Cert.LibLayout.lift_row hred r n)

/-- The result: the row minima summed from zero, divided by 8192. -/
theorem result_apply (i : S_.Idx) :
    val_main_v17 (F := Ideal) x0 x1 i
      = Ideal.div (Ideal.ofBits .f32 0x00000000#32 + ∑ a : Fin 8192, val_main_v15 (F := Ideal) x0 x1 (ix1 a))
          (Ideal.ofBits .f32 0x46000000#32) := by
  rw [val_main_v17_apply, val_main_v16_apply, Cert.LibIdxSums.sum_idx1]
  rfl

end Cert.ReferenceIdeal.RefValue

end
-- ==== Proof.RowLaw.lean ====
/-
  The mathematics that joins the two programs, free of any program.

  For one query row with squared norm `s`, and candidates `n` with squared norms `t n` and inner products `c n` with the
  query, one program takes the least of `(s + t n - 2 c n) / 256` over the candidates; the other takes the least of
  `t n / 2 - c n`, and only then doubles it, adds `s` and multiplies by `1/256`. Since `z ↦ (s + 2 z) / 256` is
  increasing, it may be applied before or after taking the least value of a finite non-empty family, and term by term
  `(s + 2 (t n / 2 - c n)) / 256 = (s + t n - 2 c n) / 256` is an identity of real numbers. On the extended reals the
  first step holds as it stands; the second is where every quantity must be a real number, because doubling does not
  distribute over a difference of infinities.
-/
import proofs.«177271_j84086869721403_2_alg».proof.Proof.LibMinLaws

noncomputable section

open scoped BigOperators

namespace Cert.NearestRow

open Idealize.ShloMosaic

/-- A finite sum of products of real numbers, computed on the extended reals, is the real sum. -/
theorem coe_sum_mul {ι : Type} (S : Finset ι) (a b : ι → ℝ) :
    ∑ k ∈ S, ((a k : ℝ) : EReal) * ((b k : ℝ) : EReal) = ((∑ k ∈ S, a k * b k : ℝ) : EReal) := by
  classical
  induction S using Finset.induction_on with
  | empty => simp
  | insert i S hi ih => rw [Finset.sum_insert hi, Finset.sum_insert hi, ih, EReal.coe_add, EReal.coe_mul]

/-- Doubling, adding a fixed value and multiplying by `1/256` preserves order on the extended reals. -/
theorem finish_mono (s : EReal) :
    Monotone fun z : EReal => (s + ((2 : ℝ) : EReal) * z) * ((1 / 256 : ℝ) : EReal) := by
  intro a b h
  have h2 : (0 : EReal) ≤ ((2 : ℝ) : EReal) := EReal.coe_nonneg.mpr (by norm_num)
  have h256 : (0 : EReal) ≤ ((1 / 256 : ℝ) : EReal) := EReal.coe_nonneg.mpr (by norm_num)
  exact mul_le_mul_of_nonneg_right (add_le_add le_rfl (mul_le_mul_of_nonneg_left h h2)) h256

/-- THE ROW LAW. For real `s`, `t n`, `c n` over a finite non-empty set of candidates: finishing the least half-distance
    is the least finished distance. -/
theorem row_law {ι : Type} [Finite ι] [Nonempty ι] (s : ℝ) (t c : ι → ℝ) :
    ((s : EReal) + ((2 : ℝ) : EReal) * ⨅ n, (((1 / 2 : ℝ) : EReal) * (t n : EReal) - (c n : EReal))) * ((1 / 256 : ℝ) : EReal)
      = ⨅ n, Ideal.div (((s : EReal) + (t n : EReal)) - ((2 : ℝ) : EReal) * (c n : EReal)) ((256 : ℝ) : EReal) := by
  rw [Cert.MinLaws.map_iInf_of_monotone (finish_mono (s : EReal))]
  refine iInf_congr fun n => ?_
  rw [Ideal.div_coe (by norm_num : (256 : ℝ) ≠ 0)]
  rw [← EReal.coe_mul, ← EReal.coe_sub, ← EReal.coe_mul, ← EReal.coe_add, ← EReal.coe_mul,
    ← EReal.coe_add, ← EReal.coe_mul, ← EReal.coe_sub, ← EReal.coe_mul]
  exact congrArg _ (by ring)

end Cert.NearestRow

end
-- ==== Proof.LibFloatWordsPow2.lean ====
/-
  GENERAL lemmas: the extended reals denoted by three f32 words that are powers of two — one half, two to the minus eight
  (the reciprocal of 256, exact in binary) and 256 itself.
-/
import proofs.«177271_j84086869721403_2_alg».proof.Proof.LibFloatWords

noncomputable section

namespace Cert.FloatWordsPow2

open Idealize.ShloMosaic

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The word of `0.00390625` denotes the real `1/256`: a power of two, so the binary value is the fraction exactly. -/
theorem ofBits_inv256 : Ideal.ofBits .f32 0x3B800000#32 = ((1 / 256 : ℝ) : EReal) := by
  simp [Ideal.ofBits, Ideal.ieee, -EReal.coe_mul]; norm_num

/-- The word of `256.0` denotes the real `256`. -/
theorem ofBits_256 : Ideal.ofBits .f32 0x43800000#32 = ((256 : ℝ) : EReal) := by
  simp [Ideal.ofBits, Ideal.ieee, -EReal.coe_mul]; norm_num

end Cert.FloatWordsPow2

end
-- ==== Proof.RowBridge.lean ====
/-
  The row law in the two programs' own spelling.

  Both programs write their constants as f32 words and start their sums from the zero word. With every entry of the two
  arrays a real number, the sums of products are real numbers, the words are the reals they denote, and the row law
  applies: the finished least half-distance of a query row is the least finished distance.
-/
import proofs.«177271_j84086869721403_2_alg».proof.Proof.RowLaw
import proofs.«177271_j84086869721403_2_alg».proof.Proof.LibFloatWordsPow2
import Idealize.ShloMosaic.Lib.ValueIdx
import Idealize.ShloMosaic.PureOps.Ideal.Laws

noncomputable section

open scoped BigOperators
open Idealize.ShloMosaic Idealize.ShloMosaic.ValueIdx

namespace Cert.NearestRow

theorem row_bridge (X Y : (⟨2, ![8192, 256]⟩ : Shape).Idx → EReal)
    (hX : ∀ i, ∃ x : ℝ, X i = (x : EReal)) (hY : ∀ i, ∃ y : ℝ, Y i = (y : EReal)) (r : Fin 8192) :
    ((∑ k : Fin 256, X (ix2 r k) * X (ix2 r k))
        + Ideal.ofBits .f32 0x40000000#32
          * ⨅ n : Fin 8192, (Ideal.ofBits .f32 0x3F000000#32
                * (Ideal.ofBits .f32 0x00000000#32 + ∑ k : Fin 256, Y (ix2 n k) * Y (ix2 n k))
              - ∑ k : Fin 256, X (ix2 r k) * Y (ix2 n k)))
      * Ideal.ofBits .f32 0x3B800000#32
    = ⨅ n : Fin 8192, Ideal.div
        (((Ideal.ofBits .f32 0x00000000#32 + ∑ k : Fin 256, X (ix2 r k) * X (ix2 r k))
            + (Ideal.ofBits .f32 0x00000000#32 + ∑ k : Fin 256, Y (ix2 n k) * Y (ix2 n k)))
          - Ideal.ofBits .f32 0x40000000#32 * ∑ k : Fin 256, X (ix2 r k) * Y (ix2 n k))
        (Ideal.ofBits .f32 0x43800000#32) := by
  choose xr hxr using hX
  choose yr hyr using hY
  haveI : Nonempty (Fin 8192) := ⟨⟨0, by norm_num⟩⟩
  simp only [hxr, hyr, coe_sum_mul, Cert.FloatWords.ofBits_two, Cert.FloatWordsPow2.ofBits_half, Cert.FloatWordsPow2.ofBits_inv256, Cert.FloatWordsPow2.ofBits_256,
    Ideal.ofBits_zero_f32, zero_add]
  exact row_law (∑ k : Fin 256, xr (ix2 r k) * xr (ix2 r k)) (fun n => ∑ k : Fin 256, yr (ix2 n k) * yr (ix2 n k))
    (fun n => ∑ k : Fin 256, xr (ix2 r k) * yr (ix2 n k))

end Cert.NearestRow

end
-- ==== Proof.Bridge.lean ====
/-
  The two results are one number.

  Row by row, the value the kernel leaves in its output column is the reference's row minimum (the row law, with the
  half norms the host computed and every entry a real number); both programs then sum their 8192 rows from zero and
  divide by the same constant. A sum over the index set of a column and a sum over the index set of a vector are both
  the sum over the rows.
-/
import proofs.«177271_j84086869721403_2_alg».proof.Proof.KernelValue
import proofs.«177271_j84086869721403_2_alg».proof.Proof.Reference
import proofs.«177271_j84086869721403_2_alg».proof.Proof.RowBridge

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.KernelIdeal.Blocks Cert.KernelIdeal.Column Cert.KernelIdeal.Output
  Cert.KernelIdeal.Value

variable (m : (ℓ : Loc nD τ sig) → Buf (Elt Ideal) ℓ)

/-- One row: the kernel's value is the reference's row minimum of the same two arrays. -/
theorem rowValue_eq (c : Dev nD) (hX : ∀ i, ∃ x : ℝ, queries m c i = (x : EReal))
    (hY : ∀ i, ∃ y : ℝ, candidates m c i = (y : EReal)) (r : Fin 8192) :
    rowValue m c r = Cert.ReferenceIdeal.Read.val_main_v15 (F := Ideal) (queries m c) (candidates m c) (ix1 r) := by
  rw [Cert.ReferenceIdeal.RefValue.rowMin_apply]
  simp only [Cert.ReferenceIdeal.RefValue.dist_apply]
  unfold rowValue
  have hg : (⨅ n : Fin 8192, gap m c r n)
      = ⨅ n : Fin 8192, (Ideal.ofBits .f32 0x3F000000#32
            * (Ideal.ofBits .f32 0x00000000#32 + ∑ k : Fin 256, candidates m c (ix2 n k) * candidates m c (ix2 n k))
          - ∑ k : Fin 256, queries m c (ix2 r k) * candidates m c (ix2 n k)) :=
    iInf_congr fun n => congrArg (· - _) (halfNorms_apply m c n)
  rw [hg]
  exact Cert.NearestRow.row_bridge (queries m c) (candidates m c) hX hY r

/-- The kernel's result is the reference's result term of the arrays the kernel finds. -/
theorem result_eq (c : Dev nD) (hX : ∀ i, ∃ x : ℝ, queries m c i = (x : EReal))
    (hY : ∀ i, ∃ y : ℝ, candidates m c i = (y : EReal)) :
    result m c = Cert.ReferenceIdeal.Read.val_main_v17 (F := Ideal) (queries m c) (candidates m c) := by
  funext i
  rw [Cert.ReferenceIdeal.RefValue.result_apply]
  unfold result
  show Ideal.div (Host.reduceAdd (F := Ideal) (rowValues m c) _ _ _ i) (Ideal.ofBits .f32 0x46000000#32) = _
  refine congrArg (Ideal.div · _) ?_
  simp only [Host.reduceAdd, Ideal.hostReduceAdd_def]
  refine (Ideal.hostReduceAdd_total reducesTo_S8192x1_S_d0_1 (fun b => b.elim0) (rowValues m c) _ i).trans ?_
  refine congrArg (_ + ·) ?_
  rw [Cert.LibHostSums.sum_column]
  refine Finset.sum_congr rfl fun a _ => ?_
  show rowValue m c (rowAt a.val) = _
  rw [rowAt_eq a.val a.isLt]
  exact rowValue_eq m c hX hY a

/-- The same, with the arrays named as the launch memory's argument buffers. -/
theorem result_eq_args (c : Dev nD)
    (hX : ∀ i, ∃ x : ℝ, m ((c.tc : Thread nD τ).loc main_arg0) i = (x : EReal))
    (hY : ∀ i, ∃ y : ℝ, m ((c.tc : Thread nD τ).loc main_arg1) i = (y : EReal)) :
    result m c = Cert.ReferenceIdeal.Read.val_main_v17 (F := Ideal)
      (m ((c.tc : Thread nD τ).loc main_arg0)) (m ((c.tc : Thread nD τ).loc main_arg1)) := by
  have e0 : queries m c = m ((c.tc : Thread nD τ).loc main_arg0) := V_main_arg0 m c
  have e1 : candidates m c = m ((c.tc : Thread nD τ).loc main_arg1) := V_main_arg1 m c
  have h := result_eq m c (by rw [e0]; exact hX) (by rw [e1]; exact hY)
  rw [e0, e1] at h
  exact h

end Cert.KernelIdeal.Bridge

end
-- ==== Proof.Finite.lean ====
/-
  From the precondition to real numbers.

  The precondition says, of each argument array, that the absolute value of every entry is below +infinity. On the
  extended reals that leaves only the real numbers: -infinity has absolute value +infinity, and so has +infinity.
-/
import proofs.«177271_j84086869721403_2_alg».proof.Proof.Gen.Pre_finite_inputs
import proofs.«177271_j84086869721403_2_alg».proof.Proof.LibFloatWords
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.NearestRow.Finite

open Cert.Pre_finite_inputs Cert.Pre_finite_inputs.Gen

instance : Subsingleton S_.Idx := ⟨fun a b => funext fun d => d.elim0⟩

/-- An extended real whose absolute value is below +infinity is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, Ideal.cmpf_def, Ideal.absf_def, Cert.FloatWords.ofBits_inf] at h
  induction x using EReal.rec with
  | bot => simp [Ideal.cmp] at h
  | top => simp [Ideal.cmp] at h
  | coe r => exact ⟨r, rfl⟩

/-- Under the precondition every entry of both arrays is a real number. -/
theorem real_of_pre (x0 x1 : FVec Ideal S8192x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.mp h0
  refine ⟨fun i => ?_, fun i => ?_⟩
  · exact real_of_abs_lt (x0 i) (Host.reduce_andi_all _ _ _ _ _ ha i)
  · exact real_of_abs_lt (x1 i) (Host.reduce_andi_all _ _ _ _ _ hb i)

end Cert.NearestRow.Finite

end
-- ==== Proof.lean ====
/-
  A nearest-neighbour mean squared distance, computed two ways, is one number on the extended reals.

  For 8192 query rows and 8192 candidate rows of 256 entries each, the reference forms every scaled squared distance
  (|q|² + |c|² - 2 q·c) / 256, takes the least over the candidates for each query, and averages over the queries. The
  kernel never forms the distance matrix: the host first computes each candidate's half squared norm; the kernel walks
  8 row tiles by 8 column tiles of 1024, keeps for each query row of a row tile the least of |c|²/2 - q·c over the
  candidates seen so far (restarting from +infinity at the first column tile), and at the last column tile writes
  (|q|² + 2 · least) · (1/256); the host averages that column.

  Why they agree: z ↦ (|q|² + 2 z) / 256 is increasing, so it commutes with the least value of a finite non-empty family,
  and term by term (|q|² + 2 (|c|²/2 - q·c)) / 256 = (|q|² + |c|² - 2 q·c) / 256 — an identity of REAL numbers, which is
  where the precondition (every input entry finite) is used: on the extended reals, doubling does not distribute over a
  difference of infinities. The constant 1/256 is a power of two, so its binary value is the fraction exactly, and a
  narrowing of the matrix product's operands to a shorter float format is the identity on extended reals.

  The modules, in order: LibFloatWords and LibFloatWordsPow2 (the constants), RowLaw and RowBridge (the law above),
  LibMinLaws and LibLaneMin (least values, tile by tile and along a row), LibLanes / LibLayout / LibHostSums / LibIdxSums
  (products and sums read at an index), Pieces / Payloads / Blocks (what one grid point computes, as values of the whole arrays), Column
  (the induction over grid points), Output (the blocks written back fill the output column), KernelValue (the host
  operations around the region; the kernel's run), Reference (the reference read at an index), Finite (the precondition
  gives real entries), Bridge (the two results are equal). The idealization rewrote nothing, so that conjunct is trivial.
-/
import proofs.«177271_j84086869721403_2_alg».proof.Defs
import proofs.«177271_j84086869721403_2_alg».proof.Proof.Gen.Kernel
import proofs.«177271_j84086869721403_2_alg».proof.Proof.Gen.Kernel.Skeleton
import proofs.«177271_j84086869721403_2_alg».proof.Proof.Gen.Kernel.Launch
import proofs.«177271_j84086869721403_2_alg».proof.Proof.Gen.Kernel.Points
import proofs.«177271_j84086869721403_2_alg».proof.Proof.Gen.Kernel.Frame
import proofs.«177271_j84086869721403_2_alg».proof.Proof.Gen.KernelIdeal
import proofs.«177271_j84086869721403_2_alg».proof.Proof.Gen.KernelIdeal.Skeleton
import proofs.«177271_j84086869721403_2_alg».proof.Proof.Gen.KernelIdeal.Launch
import proofs.«177271_j84086869721403_2_alg».proof.Proof.Gen.KernelIdeal.Points
import proofs.«177271_j84086869721403_2_alg».proof.Proof.Gen.KernelIdeal.Frame
import proofs.«177271_j84086869721403_2_alg».proof.Proof.Gen.ReferenceIdeal
import proofs.«177271_j84086869721403_2_alg».proof.Proof.Gen.Pre_finite_inputs
import proofs.«177271_j84086869721403_2_alg».proof.Proof.Gen.ReferenceIdeal.Run
import proofs.«177271_j84086869721403_2_alg».proof.Proof.Gen.ReferenceIdeal.Read
import proofs.«177271_j84086869721403_2_alg».proof.Proof.Bridge
import proofs.«177271_j84086869721403_2_alg».proof.Proof.Finite
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- On the extended reals, from memories that agree on the two arguments and hold only finite entries, the kernel ends at
    the mean over the query rows of (|q|² + 2 · least half-distance) / 256 and the reference at the mean of the least
    scaled distances: one number, by the row law. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.NearestRow.Finite.real_of_pre _ _ (hpre c)
  rw [Cert.ReferenceIdeal.Read.val_main_v17_eq, (hagree c).1, (hagree c).2]
  exact (Cert.KernelIdeal.Bridge.result_eq_args m c hX hY).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
